-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S131072x64 .f32) (main_arg1 : FVec F S512x64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S131072x64 : Shape := ⟨2, ![131072, 64]⟩
abbrev S512x64 : Shape := ⟨2, ![512, 64]⟩
abbrev S131072x577 : Shape := ⟨2, ![131072, 577]⟩
abbrev S4096x64 : Shape := ⟨2, ![4096, 64]⟩
abbrev S4096x577 : Shape := ⟨2, ![4096, 577]⟩
abbrev S4096 : Shape := ⟨1, ![4096]⟩
abbrev S4096x1 : Shape := ⟨2, ![4096, 1]⟩
abbrev S512 : Shape := ⟨1, ![512]⟩
abbrev S4096x512 : Shape := ⟨2, ![4096, 512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x577, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S4096x577, .f32⟩
  | .local _ .vmem, ⟨4, _⟩ => ⟨S4096x577, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x577 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  reduces_S4096x64_S4096 : S4096x64.Reduces [1] S4096
  shapeCasts_S4096_S4096x1 : S4096.ShapeCasts S4096x1
  reduces_S512x64_S512 : S512x64.Reduces [1] S512
  shapeCasts_S512_S1x512 : S512.ShapeCasts S1x512
  broadcasts_S4096x1_S4096x512 : S4096x1.Broadcasts S4096x512
  broadcasts_S1x512_S4096x512 : S1x512.Broadcasts S4096x512
  inb_S4096x577_S4096x1_0_0 : ∀ a, (![0, 0] : Fin 2 → Nat) a + S4096x1.size a ≤ S4096x577.size a
  h_S4096x1 : 0 < S4096x1.numel
  inb_S4096x577_S4096x64_0_1 : ∀ a, (![0, 1] : Fin 2 → Nat) a + S4096x64.size a ≤ S4096x577.size a
  inb_S4096x577_S4096x512_0_65 : ∀ a, (![0, 65] : Fin 2 → Nat) a + S4096x512.size a ≤ S4096x577.size a
  h_S4096x512 : 0 < S4096x512.numel
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x577.size a ≤ S131072x577.size a
  hwx0_2 : ∀ i : grid0.Coords, EltTy.bits .f32 = 32 ∨ (Rect.block (s := S131072x577) S4096x577.size (cc0_transform_2 i) (hinb0_2 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x577.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S64x512 : Shape := ⟨2, ![64, 512]⟩
abbrev S131072x577 : Shape := ⟨2, ![131072, 577]⟩

abbrev nBuf : Space → Nat
  | .hbm => 38
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S64x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S_, .f32⟩
  | .hbm, ⟨24, _⟩ => ⟨S131072x512, .f32⟩
  | .hbm, ⟨25, _⟩ => ⟨S131072x512, .i1⟩
  | .hbm, ⟨26, _⟩ => ⟨S_, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S_, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x1, .f32⟩
  | .hbm, ⟨37, _⟩ => ⟨S131072x577, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  bcast_S_S131072x1 : S_.BroadcastsInDim S131072x1 (![] : Fin 0 → Fin S131072x1.rank)
  concatenates_S131072x1_S131072x64_S131072x512_S131072x577_d1 : Shape.Concatenates [S131072x1, S131072x64, S131072x512] S131072x577 1
  dot_S131072x64_S64x512_S131072x512_1_0_0_1_n_n_wf : DotDims.WF S131072x64 S64x512 S131072x512 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf

class Facts : Prop extends Facts₀ where

variable [Facts]
-- ==== Proof.Spec.lean ====
/-
  The function both programs compute, over the extended reals.

  For a data row `a` and a center row `b` (64 entries each) the squared distance is taken through the
  expansion  ‖a‖² + ‖b‖² − 2·⟨a, b⟩ ; it is clamped at zero from below, and the radial basis value is
      d · log (√d + ε)   where the clamped distance `d` is positive,   0 elsewhere,
  with ε the single-precision number nearest 10⁻⁴ (the same binary word in both programs, so its value never
  matters). A row of the result is the constant one, then the 64 entries of the data row, then the 512 radial
  basis values of that row against the 512 centers.

  No algebraic law is needed between the two programs beyond "a sum started from zero is the sum": both
  programs add the same terms in the same grouping. In particular nothing here needs the inputs to be finite.
-/
import Idealize.ShloMosaic.PureOps.Ideal
import Idealize.ShloMosaic.Lib.ValueIdx

noncomputable section

open scoped BigOperators

namespace Cert.DicRbf

open Idealize.ShloMosaic Idealize.ShloMosaic.ValueIdx

/-- ‖a‖² + ‖b‖² − 2·⟨a, b⟩, grouped as both programs group it. -/
def sqDist (a b : Fin 64 → EReal) : EReal :=
  ((∑ k : Fin 64, a k * a k) + ∑ k : Fin 64, b k * b k) - Ideal.ofBits .f32 0x40000000#32 * ∑ k : Fin 64, a k * b k

/-- From an (unclamped) squared distance `d` to the radial basis value: with `d⁺ = max d 0`,
    `d⁺ · log (√d⁺ + ε)` where `d⁺ > 0`, and `0` elsewhere. -/
def ofSqDist (d : EReal) : EReal :=
  Scalar.select (Ideal.cmp .ogt (max d (Ideal.ofBits .f32 0x00000000#32)) (Ideal.ofBits .f32 0x00000000#32))
    (max d (Ideal.ofBits .f32 0x00000000#32)
      * Ideal.log (Ideal.sqrt (max d (Ideal.ofBits .f32 0x00000000#32)) + Ideal.ofBits .f32 0x38D1B717#32))
    (Ideal.ofBits .f32 0x00000000#32)

/-- The radial basis value of a data row against a center row. -/
def rbf (a b : Fin 64 → EReal) : EReal := ofSqDist (sqDist a b)

/-- One row of the result, at column `q`, from the data row `a` and the array of centers:
    column 0 is one, columns 1 … 64 are the data row, column 65 + c is the radial basis value against center `c`. -/
def outRow (a : Fin 64 → EReal) (x1 : (⟨2, ![512, 64]⟩ : Shape).Idx → EReal) (q : Fin 577) : EReal :=
  if q.val < 1 then Ideal.ofBits .f32 0x3F800000#32
  else if h1 : q.val < 65 then a ⟨q.val - 1, by omega⟩
  else rbf a (fun k => x1 (ix2 (⟨q.val - 65, by have := q.isLt; omega⟩ : Fin 512) k))

/-- The whole result array as a function of the two argument arrays: row `i 0` is `outRow` of data row `i 0`. -/
def result (x0 : (⟨2, ![131072, 64]⟩ : Shape).Idx → EReal) (x1 : (⟨2, ![512, 64]⟩ : Shape).Idx → EReal) :
    (⟨2, ![131072, 577]⟩ : Shape).Idx → EReal :=
  fun i => outRow (fun k => x0 (ix2 (⟨(i 0).val, (i 0).isLt⟩ : Fin 131072) k)) x1 ⟨(i 1).val, (i 1).isLt⟩

theorem result_apply (x0 : (⟨2, ![131072, 64]⟩ : Shape).Idx → EReal) (x1 : (⟨2, ![512, 64]⟩ : Shape).Idx → EReal)
    (r : Fin 131072) (q : Fin 577) :
    result x0 x1 (ix2 r q) = outRow (fun k => x0 (ix2 r k)) x1 q := rfl

end Cert.DicRbf

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.KernelPayload.lean ====
/-
  The kernel body's two stored values, read at an index at the ideal values.

  The stored `[4096, 512]` tile is, at `(r, c)`, the radial basis value of row `r` of the loaded data block against
  row `c` of the loaded centers: the row norms are lane sums kept as a column (of the data block) and as a row (of the
  centers), the cross term is the matrix unit's product of the block with the centers contracted over their common
  second axis into a zero accumulator, and everything after that is pointwise. The stored `[4096, 1]` column is the
  constant one.
-/
import proofs.«150016_j78314433675988_1_alg».proof.Proof.Gen.KernelIdeal.Skeleton
import proofs.«150016_j78314433675988_1_alg».proof.Proof.Spec
import proofs.«150016_j78314433675988_1_alg».proof.Proof.LibKeepdims
import Idealize.ShloMosaic.Lib.ValueIdx
import Idealize.ShloMosaic.PureOps.Ideal.Laws

noncomputable section

open scoped BigOperators

namespace Cert.KernelIdeal.Payload

open Cert.KernelIdeal Cert.KernelIdeal.Gen Cert.DicRbf Idealize.ShloMosaic Idealize.ShloMosaic.ValueIdx

/-- The coordinates of the two operand indices of the matrix product at an output index `i` and a contraction
    index `q`: the left operand is read at `(i 0, q)`, the right one at `(i 1, q)`. -/
theorem lhs_0 (i : S4096x512.Idx) (q : dot_S4096x64_S512x64_S4096x512_1_1_0_0_n_n.contr.Idx) :
    (dot_S4096x64_S512x64_S4096x512_1_1_0_0_n_n.lhsIdx i q 0).val = (i 0).val := by
  unfold DotDims.lhsIdx
  rw [dif_neg (show ¬(0 : Fin S4096x64.rank) ∈ dot_S4096x64_S512x64_S4096x512_1_1_0_0_n_n.lhsBatch by decide),
    dif_pos (show (0 : Fin S4096x64.rank) ∈ dot_S4096x64_S512x64_S4096x512_1_1_0_0_n_n.lhsNonContracting by decide)]
  rfl
theorem lhs_1 (i : S4096x512.Idx) (q : dot_S4096x64_S512x64_S4096x512_1_1_0_0_n_n.contr.Idx) :
    (dot_S4096x64_S512x64_S4096x512_1_1_0_0_n_n.lhsIdx i q 1).val = (q ⟨0, by decide⟩).val :=
  dot_S4096x64_S512x64_S4096x512_1_1_0_0_n_n.lhsIdx_val_of_single rfl i q
theorem rhs_0 (i : S4096x512.Idx) (q : dot_S4096x64_S512x64_S4096x512_1_1_0_0_n_n.contr.Idx) :
    (dot_S4096x64_S512x64_S4096x512_1_1_0_0_n_n.rhsIdx i q 0).val = (i 1).val := by
  unfold DotDims.rhsIdx
  rw [dif_neg (show ¬(0 : Fin S512x64.rank) ∈ dot_S4096x64_S512x64_S4096x512_1_1_0_0_n_n.rhsBatch by decide),
    dif_pos (show (0 : Fin S512x64.rank) ∈ dot_S4096x64_S512x64_S4096x512_1_1_0_0_n_n.rhsNonContracting by decide)]
  rfl
theorem rhs_1 (i : S4096x512.Idx) (q : dot_S4096x64_S512x64_S4096x512_1_1_0_0_n_n.contr.Idx) :
    (dot_S4096x64_S512x64_S4096x512_1_1_0_0_n_n.rhsIdx i q 1).val = (q ⟨0, by decide⟩).val :=
  dot_S4096x64_S512x64_S4096x512_1_1_0_0_n_n.rhsIdx_val_of_single rfl i q

/-- The matrix unit's product of the data block with the centers, both contracted over their second axis, into the
    zero accumulator: at `(r, c)` the inner product of row `r` of the block with row `c` of the centers. -/
theorem cross_apply (v0 : FVec Ideal S4096x64 .f32) (v1 : FVec Ideal S512x64 .f32) (r : Fin 4096) (c : Fin 512) :
    matmul dot_S4096x64_S512x64_S4096x512_1_1_0_0_n_n (some .fp32) v0 v1 (constant S4096x512 .f32 0x00000000#32) (ix2 r c)
      = ∑ k : Fin 64, v0 (ix2 r k) * v1 (ix2 c k) := by
  simp only [matmul]
  rw [Ideal.matmul_constant_zero_apply, ← Equiv.sum_comp (contrEquiv1 dot_S4096x64_S512x64_S4096x512_1_1_0_0_n_n 64 rfl rfl).symm]
  refine Finset.sum_congr rfl fun k _ => ?_
  have hk := contrEquiv1_symm_val dot_S4096x64_S512x64_S4096x512_1_1_0_0_n_n 64 rfl rfl k
  have el : dot_S4096x64_S512x64_S4096x512_1_1_0_0_n_n.lhsIdx (ix2 r c) ((contrEquiv1 dot_S4096x64_S512x64_S4096x512_1_1_0_0_n_n 64 rfl rfl).symm k) = ix2 r k :=
    funext fun a => Fin.ext (by
      match a with
      | ⟨0, _⟩ => exact lhs_0 _ _
      | ⟨1, _⟩ => exact (lhs_1 _ _).trans hk)
  have er : dot_S4096x64_S512x64_S4096x512_1_1_0_0_n_n.rhsIdx (ix2 r c) ((contrEquiv1 dot_S4096x64_S512x64_S4096x512_1_1_0_0_n_n 64 rfl rfl).symm k) = ix2 c k :=
    funext fun a => Fin.ext (by
      match a with
      | ⟨0, _⟩ => exact rhs_0 _ _
      | ⟨1, _⟩ => exact (rhs_1 _ _).trans hk)
  rw [el, er]

/-- The squared norms of the block's rows, kept as a column and spread over the 512 columns. -/
theorem dataNorm_apply (v0 : FVec Ideal S4096x64 .f32) (r : Fin 4096) (c : Fin 512) :
    broadcastTo S4096x512 (shapeCast S4096x1 (multiReduction .add [1] S4096 (mulf v0 v0) 0x00000000#32
        reduces_S4096x64_S4096 (.inl rfl) rfl) shapeCasts_S4096_S4096x1) broadcasts_S4096x1_S4096x512 (ix2 r c)
      = ∑ k : Fin 64, v0 (ix2 r k) * v0 (ix2 r k) :=
  rowSum_bcast_apply (mulf v0 v0) 0x00000000#32 reduces_S4096x64_S4096 (.inl rfl) rfl shapeCasts_S4096_S4096x1
    broadcasts_S4096x1_S4096x512 r c

/-- The squared norms of the centers, laid out as a row and spread over the 4096 rows. -/
theorem centerNorm_apply (v1 : FVec Ideal S512x64 .f32) (r : Fin 4096) (c : Fin 512) :
    broadcastTo S4096x512 (shapeCast S1x512 (multiReduction .add [1] S512 (mulf v1 v1) 0x00000000#32
        reduces_S512x64_S512 (.inl rfl) rfl) shapeCasts_S512_S1x512) broadcasts_S1x512_S4096x512 (ix2 r c)
      = ∑ k : Fin 64, v1 (ix2 c k) * v1 (ix2 c k) :=
  rowSum_bcastRow_apply (mulf v1 v1) 0x00000000#32 reduces_S512x64_S512 (.inl rfl) rfl shapeCasts_S512_S1x512
    broadcasts_S1x512_S4096x512 r c

/-- The stored tile at `(r, c)`: the radial basis value of the block's row `r` against center `c`. Everything
    after the two norms and the cross term is pointwise, so the index passes through it. -/
theorem tile_apply (v0 : Vec Ideal S4096x64 .f32) (v1 : Vec Ideal S512x64 .f32) (r : Fin 4096) (c : Fin 512) :
    k0_pay1 (F := Ideal) v0 v1 (ix2 r c) = rbf (fun k => v0 (ix2 r k)) (fun k => v1 (ix2 c k)) := by
  have hsqrt : ∀ (x : FVec Ideal S4096x512 .f32) (i : S4096x512.Idx), sqrt x i = Ideal.sqrt (x i) := fun _ _ => rfl
  have hlog : ∀ (x : FVec Ideal S4096x512 .f32) (i : S4096x512.Idx), log x i = Ideal.log (x i) := fun _ _ => rfl
  unfold k0_pay1
  simp only [select_apply, cmpf_apply, mulf_apply, addf_apply, subf_apply, maximumf_apply, broadcast_apply, hsqrt, hlog]
  rw [dataNorm_apply, centerNorm_apply, cross_apply]
  rfl

/-- The stored column is the constant one. -/
theorem ones_apply (y : S4096x1.Idx) : k0_pay2 (F := Ideal) y = Ideal.ofBits .f32 0x3F800000#32 := rfl

end Cert.KernelIdeal.Payload

end
-- ==== Proof.KernelBlock.lean ====
/-
  What one run of the kernel body leaves in the output's `[4096, 577]` staging block, read at an index.

  The body stores three rectangles that sit side by side along the second axis: the column of ones at column 0, the
  loaded data block at columns 1 … 64, and the tile of radial basis values at columns 65 … 576. The last store of a
  rectangle holding an index decides what is read there, and the three rectangles are disjoint, so at `(r, q)` the
  block reads the store whose column range holds `q`, at `q` less that range's first column: row `r` of the block is
  `outRow` of row `r` of the loaded data block.
-/
import proofs.«150016_j78314433675988_1_alg».proof.Proof.Gen.KernelIdeal.Frame
import proofs.«150016_j78314433675988_1_alg».proof.Proof.KernelPayload
import Idealize.ShloMosaic.Lib.WritesUnit
import Idealize.ShloMosaic.Lib.Pipeline.Value

set_option maxRecDepth 16384

noncomputable section

namespace Cert.KernelIdeal.Block

open Cert.KernelIdeal Cert.KernelIdeal.Gen Cert.DicRbf Idealize.ShloMosaic Idealize.ShloMosaic.TcCoe Idealize.SL.Sem
open Idealize.ShloMosaic.Tactic Idealize.ShloMosaic.ValueIdx

theorem hz : (![0, 0] : Fin 2 → Nat) = fun _ => 0 := funext fun a => by fin_cases a <;> rfl

/-- The staging block after the body, at row `r` and column `q`. -/
theorem out_apply (c : Dev nD) (i : grid0.Coords) (arg1 : Memref sig .tc .vmem S4096x64 .f32) (harg1 : arg1.IsWhole)
    (arg2 : Memref sig .tc .vmem S512x64 .f32) (harg2 : arg2.IsWhole) (arg3 : Memref sig .tc .vmem S4096x577 .f32) (harg3 : arg3.IsWhole)
    (x0 : Vec Ideal S4096x64 .f32) (x1 : Vec Ideal S512x64 .f32) (r : Fin 4096) (q : Fin 577) :
    out0_A_2 (F := Ideal) c i arg1 harg1 arg2 harg2 arg3 harg3 x0 x1 (ix2 r q) = outRow (fun k => x0 (ix2 r k)) x1 q := by
  unfold out0_A_2 kernelRun0_A
  dsimp only
  sl_unfold_words
  simp only [View.readAt_eq_ld, harg1.read_unread, harg2.read_unread, View.ld_unit_zero (S := S4096x64) hz,
    View.ld_unit_zero (S := S512x64) hz]
  unfold outRow
  have hq := q.isLt
  by_cases h0 : q.val < 1
  · rw [if_pos h0]
    refine (View.read_writes_cons_unit_of_not_mem _ _ _ _ _ (ix2 r q) rfl 1 (Or.inl (by show q.val < 65; omega))).trans ?_
    refine (View.read_writes_cons_unit_of_not_mem _ _ _ _ _ (ix2 r q) rfl 1 (Or.inl (by show q.val < 1; omega))).trans ?_
    refine (View.read_writes_cons_unit_of_mem _ _ _ _ _ (ix2 r q) (ix2 r (⟨q.val, h0⟩ : Fin 1)) rfl (fun a => by
      match a with
      | ⟨0, _⟩ => show r.val = 0 + r.val; omega
      | ⟨1, _⟩ => show q.val = 0 + q.val; omega)).trans ?_
    rfl
  · rw [if_neg h0]
    by_cases h1 : q.val < 65
    · rw [dif_pos h1]
      refine (View.read_writes_cons_unit_of_not_mem _ _ _ _ _ (ix2 r q) rfl 1 (Or.inl (by show q.val < 65; omega))).trans ?_
      exact View.read_writes_cons_unit_of_mem _ _ _ _ _ (ix2 r q) (ix2 r (⟨q.val - 1, by omega⟩ : Fin 64)) rfl (fun a => by
        match a with
        | ⟨0, _⟩ => show r.val = 0 + r.val; omega
        | ⟨1, _⟩ => show q.val = 1 + (q.val - 1); omega)
    · rw [dif_neg h1]
      refine (View.read_writes_cons_unit_of_mem _ _ _ _ _ (ix2 r q) (ix2 r (⟨q.val - 65, by omega⟩ : Fin 512)) rfl (fun a => by
        match a with
        | ⟨0, _⟩ => show r.val = 0 + r.val; omega
        | ⟨1, _⟩ => show q.val = 65 + (q.val - 65); omega)).trans ?_
      exact Payload.tile_apply x0 x1 r _

end Cert.KernelIdeal.Block

end
-- ==== Proof.KernelArray.lean ====
/-
  From the blocks to the array: after the kernel's run the result array is `DicRbf.result` of the two argument arrays.

  Grid point `t` (of 32) stages rows `4096·t … 4096·t + 4095` of the data, the whole array of centers, and writes back
  rows `4096·t … 4096·t + 4095` of the result. Row `r` of the block the body leaves is `outRow` of row `r` of the staged
  data block, which is row `4096·t + r` of the data: so what point `t` writes back is block `t` of `result`. The 32
  blocks tile the result array (row `R` lies in block `R / 4096`), so the array ends holding `result` everywhere.
-/
import proofs.«150016_j78314433675988_1_alg».proof.Proof.Gen.KernelIdeal.Value
import proofs.«150016_j78314433675988_1_alg».proof.Proof.KernelBlock
import Idealize.ShloMosaic.Lib.Pipeline.Value

set_option maxRecDepth 16384

noncomputable section

namespace Cert.KernelIdeal.Array

open Cert.KernelIdeal Cert.KernelIdeal.Gen Cert.DicRbf Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps over the grid: the data and the result move one block of rows per point, the centers stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := Nat.lt_of_lt_of_eq t.isLt N_0

/-- The staged data block at point `t`, at `(r, k)`: the data at row `4096·t + r`. -/
theorem dataBlock_apply (c : Dev nD) (t : Fin cfg0.N) (r : Fin 4096) (k : Fin 64) :
    iblk m c 0 t (ix2 r k) = V m c main_arg0 (ix2 (⟨t.val * 4096 + r.val, by have := point_lt t; omega⟩ : Fin 131072) k) := by
  show V m c main_arg0 (((cfg0.win 0).blk t).view.emb (ix2 r k)) = V m c main_arg0 _
  refine congrArg (V m c main_arg0) (funext fun a => Fin.ext ?_)
  obtain ⟨e0, e1, -⟩ := idx_facts t
  match a with
  | ⟨0, _⟩ => show win0_0.index t (0 : Fin 2) * 4096 + 1 * r.val = t.val * 4096 + r.val; rw [e0]; omega
  | ⟨1, _⟩ => show win0_0.index t (1 : Fin 2) * 64 + 1 * k.val = k.val; rw [e1]; omega

/-- The staged centers at any point: the centers. -/
theorem centersBlock_eq (c : Dev nD) (t : Fin cfg0.N) : iblk m c 1 t = V m c main_arg1 := by
  funext y
  show V m c main_arg1 (((cfg0.win 1).blk t).view.emb y) = V m c main_arg1 y
  refine congrArg (V m c main_arg1) (funext fun a => Fin.ext ?_)
  obtain ⟨-, -, e2, e3, -⟩ := idx_facts t
  match a with
  | ⟨0, _⟩ => show win0_1.index t (0 : Fin 2) * 512 + 1 * (y 0).val = (y 0).val; rw [e2]; omega
  | ⟨1, _⟩ => show win0_1.index t (1 : Fin 2) * 64 + 1 * (y 1).val = (y 1).val; rw [e3]; omega

/-- One row of the block a point leaves is the matching row of `result`: stated over a block `b0` of an array `X0`
    known only through the rows it holds. -/
theorem row_eq (X0 : S131072x64.Idx → EReal) (X1 : S512x64.Idx → EReal) (b0 : Vec Ideal S4096x64 .f32) (b1 : Vec Ideal S512x64 .f32)
    (n : ℕ) (hn : n < 32) (hb0 : ∀ (r : Fin 4096) (k : Fin 64), b0 (ix2 r k) = X0 (ix2 (⟨n * 4096 + r.val, by omega⟩ : Fin 131072) k))
    (hb1 : b1 = X1) (r : Fin 4096) (q : Fin 577) (I : S131072x577.Idx)
    (hI0 : (I 0).val = n * 4096 + r.val) (hI1 : (I 1).val = q.val) :
    outRow (fun k => b0 (ix2 r k)) b1 q = result X0 X1 I := by
  have hlt : n * 4096 + r.val < 131072 := by have := r.isLt; omega
  obtain ⟨R, Q, rfl⟩ : ∃ (R : Fin 131072) (Q : Fin 577), I = ix2 R Q := ⟨I 0, I 1, eq_ix2 I⟩
  obtain rfl : R = ⟨n * 4096 + r.val, hlt⟩ := Fin.ext hI0
  obtain rfl : Q = q := Fin.ext hI1
  rw [result_apply, hb1]
  exact congrArg (fun a => outRow a X1 Q) (funext fun k => hb0 r k)

/-- WHAT POINT `t` WRITES BACK is block `t` of `result` of the argument arrays. -/
theorem flushed_eq (c : Dev nD) (t : Fin cfg0.N) :
    (dats m 0 c).flushed 2 t = ((cfg0.win 2).blk t).view.read (Elt Ideal) (result (V m c main_arg0) (V m c main_arg1)) := by
  rw [Value.flushed2]
  unfold outsAt0
  funext j
  obtain ⟨r, q, rfl⟩ : ∃ (r : Fin 4096) (q : Fin 577), j = ix2 r q := ⟨j 0, j 1, eq_ix2 j⟩
  show out0_A_2 c (grid0.coords t) (ms0_0 t) (hs0_0 t) (ms0_1 t) (hs0_1 t) (ms0_2 t) (hs0_2 t) (iblk m c 0 t) (iblk m c 1 t) (ix2 r q)
    = result (V m c main_arg0) (V m c main_arg1) (((cfg0.win 2).blk t).view.emb (ix2 r q))
  refine (Block.out_apply c (grid0.coords t) (ms0_0 t) (hs0_0 t) (ms0_1 t) (hs0_1 t) (ms0_2 t) (hs0_2 t) (iblk m c 0 t) (iblk m c 1 t) r q).trans ?_
  obtain ⟨-, -, -, -, e4, e5⟩ := idx_facts t
  refine row_eq (V m c main_arg0) (V m c main_arg1) (iblk m c 0 t) (iblk m c 1 t) t.val (point_lt t)
    (fun r k => dataBlock_apply m c t r k) (centersBlock_eq m c t) r q _ ?_ ?_
  · show win0_2.index t (0 : Fin 2) * 4096 + 1 * r.val = t.val * 4096 + r.val; rw [e4]; omega
  · show win0_2.index t (1 : Fin 2) * 577 + 1 * q.val = q.val; rw [e5]; omega

/-- An index of the result array is in point `t`'s block iff each coordinate is in the block's range on its axis. -/
theorem mem_blk (t : Fin cfg0.N) (i : S131072x577.Idx) :
    i ∈ ((cfg0.win 2).blk t).view.set ↔ ∀ a : Fin 2, win0_2.index t a * S4096x577.size a ≤ (i a).val ∧ (i a).val < win0_2.index t a * S4096x577.size a + S4096x577.size a := by
  show i ∈ ((View.whole main_v0).slice (win0_2.rect t)).set ↔ _
  rw [View.set_slice_whole, Rect.mem_set_unit]
  exact Iff.rfl

/-- The blocks tile the result array: row `R` lies in the block of point `R / 4096`. -/
theorem cover (i : S131072x577.Idx) :
    ∃ t : Fin cfg0.N, (cfg0.win 2).flush t = true ∧ i ∈ ((cfg0.win 2).blk t).view.set := by
  have hi0 : (i 0).val < 131072 := (i 0).isLt
  have hi1 : (i 1).val < 577 := (i 1).isLt
  have hN : (i 0).val / 4096 < cfg0.N := Nat.lt_of_lt_of_eq (by omega : (i 0).val / 4096 < 32) N_0.symm
  refine ⟨⟨(i 0).val / 4096, hN⟩, flush0_2 _, ?_⟩
  rw [mem_blk]
  obtain ⟨-, -, -, -, e4, e5⟩ := idx_facts ⟨(i 0).val / 4096, hN⟩
  intro a
  match a with
  | ⟨0, _⟩ =>
    show win0_2.index ⟨(i 0).val / 4096, hN⟩ (0 : Fin 2) * 4096 ≤ (i 0).val ∧ (i 0).val < win0_2.index ⟨(i 0).val / 4096, hN⟩ (0 : Fin 2) * 4096 + 4096
    rw [e4]; show (i 0).val / 4096 * 4096 ≤ (i 0).val ∧ (i 0).val < (i 0).val / 4096 * 4096 + 4096; omega
  | ⟨1, _⟩ =>
    show win0_2.index ⟨(i 0).val / 4096, hN⟩ (1 : Fin 2) * 577 ≤ (i 1).val ∧ (i 1).val < win0_2.index ⟨(i 0).val / 4096, hN⟩ (1 : Fin 2) * 577 + 577
    rw [e5]; omega

/-- THE ARRAY after the run: `result` of the argument arrays. -/
theorem final (c : Dev nD) :
    (dats m 0 c).arrAt 2 cfg0.N = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.RefValue.lean ====
/-
  The reference program's result, read at an index at the ideal values: it is `DicRbf.result` of its two arguments.

  The reference spells the same computation over whole arrays: the row norms are sums started from a zero constant (at
  the ideal values a sum started from zero is the sum), the cross term is a product with the transposed centers
  (reading the transpose at `(k, c)` is reading the centers at `(c, k)`), and the three pieces are joined along the
  second axis, so column `q` of the result is column `q`, `q − 1` or `q − 65` of the piece that holds it.
-/
import proofs.«150016_j78314433675988_1_alg».proof.Proof.Gen.ReferenceIdeal.Read
import proofs.«150016_j78314433675988_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.DicRbf
open Idealize.ShloMosaic Idealize.ShloMosaic.ValueIdx

/-- The data rows' squared norms, spread over the 512 columns. -/
theorem dataNorm_apply (x0 : (⟨S131072x64, .f32⟩ : BufTy).Contents (Elt Ideal)) (r : Fin 131072) (c : Fin 512) :
    val_main_v6 (F := Ideal) x0 (ix2 r c) = ∑ k : Fin 64, x0 (ix2 r k) * x0 (ix2 r k) := by
  rw [val_main_v6_apply, val_main_v2_apply, val_main_v1_apply]
  refine (congrArg (· + _) (show val_main_cst (F := Ideal) (Shape.Idx.first h_S_) = 0 from Ideal.ofBits_zero_f32)).trans ?_
  rw [zero_add]
  refine Finset.sum_congr rfl fun k _ => ?_
  have e : idx_main_v1 (idx_main_v2 (idx_main_v6 (ix2 r c))) k = ix2 r k :=
    funext fun a => Fin.ext (by match a with | ⟨0, _⟩ => rfl | ⟨1, _⟩ => rfl)
  rw [e]
  rfl

/-- The centers' squared norms, spread over the rows. -/
theorem centerNorm_apply (x1 : (⟨S512x64, .f32⟩ : BufTy).Contents (Elt Ideal)) (r : Fin 131072) (c : Fin 512) :
    val_main_v7 (F := Ideal) x1 (ix2 r c) = ∑ k : Fin 64, x1 (ix2 c k) * x1 (ix2 c k) := by
  rw [val_main_v7_apply, val_main_v5_apply, val_main_v4_apply]
  refine (congrArg (· + _) (show val_main_cst_0 (F := Ideal) (Shape.Idx.first h_S_) = 0 from Ideal.ofBits_zero_f32)).trans ?_
  rw [zero_add]
  refine Finset.sum_congr rfl fun k _ => ?_
  have e : idx_main_v4 (idx_main_v5 (idx_main_v7 (ix2 r c))) k = ix2 c k :=
    funext fun a => Fin.ext (by match a with | ⟨0, _⟩ => rfl | ⟨1, _⟩ => rfl)
  rw [e]
  rfl

/-- The product with the transposed centers: at `(r, c)` the inner product of data row `r` with center `c`. -/
theorem cross_apply (x0 : (⟨S131072x64, .f32⟩ : BufTy).Contents (Elt Ideal)) (x1 : (⟨S512x64, .f32⟩ : BufTy).Contents (Elt Ideal))
    (r : Fin 131072) (c : Fin 512) :
    val_main_v10 (F := Ideal) x0 x1 (ix2 r c) = ∑ k : Fin 64, x0 (ix2 r k) * x1 (ix2 c k) := by
  rw [val_main_v10_apply]
  refine Finset.sum_congr rfl fun k _ => ?_
  rw [val_main_v9_apply]
  have el : lidx_main_v10 (ix2 r c) k = ix2 r k :=
    funext fun a => Fin.ext (by match a with | ⟨0, _⟩ => rfl | ⟨1, _⟩ => rfl)
  have er : idx_main_v9 (ridx_main_v10 (ix2 r c) k) = ix2 c k :=
    funext fun a => Fin.ext (by match a with | ⟨0, _⟩ => rfl | ⟨1, _⟩ => rfl)
  rw [el, er]

/-- The selected product at `(r, c)`: the radial basis value of data row `r` against center `c`. Every operation
    after the two norms and the cross term is pointwise, and the host's square root and logarithm are the kernel's
    at the ideal values. -/
theorem tile_apply (x0 : (⟨S131072x64, .f32⟩ : BufTy).Contents (Elt Ideal)) (x1 : (⟨S512x64, .f32⟩ : BufTy).Contents (Elt Ideal))
    (r : Fin 131072) (c : Fin 512) :
    val_main_v23 (F := Ideal) x0 x1 (ix2 r c) = rbf (fun k => x0 (ix2 r k)) (fun k => x1 (ix2 c k)) := by
  simp only [val_main_v23_apply, val_main_v18_apply, val_main_v22_apply, val_main_v21_apply, val_main_v20_apply,
    val_main_v16_apply, val_main_v15_apply, val_main_v13_apply, val_main_v8_apply, val_main_v12_apply,
    val_main_v11_apply, val_main_cst_1_apply, val_main_v14_apply, val_main_cst_2_apply, val_main_v17_apply,
    val_main_cst_3_apply, val_main_v19_apply, val_main_cst_4_apply, val_main_call0_v1_apply, val_main_call0_v0_apply,
    val_main_cst_5_apply, dataNorm_apply, centerNorm_apply, cross_apply]
  rfl

/-- The three joined pieces. -/
abbrev pieces (x0 : (⟨S131072x64, .f32⟩ : BufTy).Contents (Elt Ideal)) (x1 : (⟨S512x64, .f32⟩ : BufTy).Contents (Elt Ideal)) :
    List ((s : Shape) × (s.Idx → EReal)) :=
  [⟨S131072x1, val_main_v24 (F := Ideal)⟩, ⟨S131072x64, x0⟩, ⟨S131072x512, val_main_v23 (F := Ideal) x0 x1⟩]

/-- The joined result at `(r, q)` is `outRow` of data row `r` at column `q`. -/
theorem joined_apply (x0 : (⟨S131072x64, .f32⟩ : BufTy).Contents (Elt Ideal)) (x1 : (⟨S512x64, .f32⟩ : BufTy).Contents (Elt Ideal))
    (r : Fin 131072) (q : Fin 577) :
    val_main_v25 (F := Ideal) x0 x1 (ix2 r q) = outRow (fun k => x0 (ix2 r k)) x1 q := by
  show concatenate S131072x577 1 (pieces x0 x1) concatenates_S131072x1_S131072x64_S131072x512_S131072x577_d1 (ix2 r q) = _
  unfold outRow
  have hq := q.isLt
  by_cases h0 : q.val < 1
  · rw [if_pos h0]
    refine (concatenate_apply_piece (t := S131072x577) (1 : Fin 2) (pieces x0 x1) concatenates_S131072x1_S131072x64_S131072x512_S131072x577_d1 (ix2 r q)
      0 (by simp) S131072x1 (val_main_v24 (F := Ideal)) rfl rfl 0 rfl (ix2 r (⟨q.val, h0⟩ : Fin 1))
      (fun b hb => by match b with | ⟨0, _⟩ => rfl | ⟨1, _⟩ => exact absurd rfl hb)
      (by show 0 + q.val = q.val; omega)).trans ?_
    rfl
  · rw [if_neg h0]
    by_cases h1 : q.val < 65
    · rw [dif_pos h1]
      exact concatenate_apply_piece (t := S131072x577) (1 : Fin 2) (pieces x0 x1) concatenates_S131072x1_S131072x64_S131072x512_S131072x577_d1 (ix2 r q)
        1 (by simp) S131072x64 x0 rfl rfl 1 rfl (ix2 r (⟨q.val - 1, by omega⟩ : Fin 64))
        (fun b hb => by match b with | ⟨0, _⟩ => rfl | ⟨1, _⟩ => exact absurd rfl hb)
        (by show 1 + (q.val - 1) = q.val; omega)
    · rw [dif_neg h1]
      refine (concatenate_apply_piece (t := S131072x577) (1 : Fin 2) (pieces x0 x1) concatenates_S131072x1_S131072x64_S131072x512_S131072x577_d1 (ix2 r q)
        2 (by simp) S131072x512 (val_main_v23 (F := Ideal) x0 x1) rfl rfl 65 rfl (ix2 r (⟨q.val - 65, by omega⟩ : Fin 512))
        (fun b hb => by match b with | ⟨0, _⟩ => rfl | ⟨1, _⟩ => exact absurd rfl hb)
        (by show 65 + (q.val - 65) = q.val; omega)).trans ?_
      exact tile_apply x0 x1 r _

/-- The reference's result is `result` of its arguments. -/
theorem value_eq (x0 : (⟨S131072x64, .f32⟩ : BufTy).Contents (Elt Ideal)) (x1 : (⟨S512x64, .f32⟩ : BufTy).Contents (Elt Ideal)) :
    val_main_v25 (F := Ideal) x0 x1 = result x0 x1 := by
  funext j
  obtain ⟨r, q, rfl⟩ : ∃ (r : Fin 131072) (q : Fin 577), j = ix2 r q := ⟨j 0, j 1, eq_ix2 j⟩
  rw [joined_apply, result_apply]

end Cert.ReferenceIdeal.RefValue

end
-- ==== Proof.lean ====
/-
  The certificate's claim: the kernel, its idealization and the reference each run to the end without a fault and leave
  their argument arrays unchanged, and at the ideal values the idealized kernel and the idealized reference, started
  from memories that agree on the arguments, end with the same result array.

  The result is a `[131072, 577]` array whose row `R` is the constant one, then the 64 entries of data row `R`, then for
  each of the 512 centers the radial basis value `d · log (√d + ε)` (zero where `d` is not positive) of the clamped squared
  distance `d = max (‖x_R‖² + ‖c‖² − 2⟨x_R, c⟩) 0`: `DicRbf.result` (Proof/Spec.lean). The kernel computes it block by
  block of 4096 rows (Proof/KernelPayload.lean: the stored tile at an index; Proof/KernelBlock.lean: the three stores of a
  block side by side; Proof/KernelArray.lean: the 32 blocks tile the array), the reference in one piece
  (Proof/RefValue.lean). Both add the same terms in the same grouping, so no law of the extended reals beyond
  `0 + s = s` is used, and the precondition (finite inputs) is never opened. The idealization rewrote nothing, so what
  it has to preserve is trivially true.
-/
import proofs.«150016_j78314433675988_1_alg».proof.Defs
import proofs.«150016_j78314433675988_1_alg».proof.Proof.Gen.Kernel
import proofs.«150016_j78314433675988_1_alg».proof.Proof.Gen.Kernel.Frame
import proofs.«150016_j78314433675988_1_alg».proof.Proof.Gen.KernelIdeal
import proofs.«150016_j78314433675988_1_alg».proof.Proof.Gen.KernelIdeal.Frame
import proofs.«150016_j78314433675988_1_alg».proof.Proof.Gen.KernelIdeal.Value
import proofs.«150016_j78314433675988_1_alg».proof.Proof.Gen.ReferenceIdeal
import proofs.«150016_j78314433675988_1_alg».proof.Proof.Gen.ReferenceIdeal.Run
import proofs.«150016_j78314433675988_1_alg».proof.Proof.Gen.ReferenceIdeal.Read
import proofs.«150016_j78314433675988_1_alg».proof.Proof.Gen.Pre_finite_inputs
import proofs.«150016_j78314433675988_1_alg».proof.Proof.KernelArray
import proofs.«150016_j78314433675988_1_alg».proof.Proof.RefValue

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with `DicRbf.result` of the (agreeing) argument arrays. -/
theorem algebraic : Cert.algebraic_KernelIdeal_ReferenceIdeal := by
  intro m ρ m' ρ' _ hagree
  refine ⟨fun c => Cert.DicRbf.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.RefValue.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
